-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S256x8192 : Shape := ⟨2, ![256, 8192]⟩
abbrev S256 : Shape := ⟨1, ![256]⟩
abbrev S_ : Shape := ⟨0, ![]⟩
abbrev S1 : Shape := ⟨1, ![1]⟩

abbrev nBuf : Space → Nat
  | .hbm => 16
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S8192, .f32⟩
  | .hbm, ⟨15, _⟩ => ⟨S8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256, .f32⟩
  | .local _ .vmem, ⟨5, _⟩ => ⟨S256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S8192.size a
  hwx0_2 : ∀ i : grid0.Coords, EltTy.bits .f32 = 32 ∨ (Rect.block (s := S8192) S256.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S8192, .f32⟩
  | .hbm, ⟨17, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)

variable [Facts₀]

class Facts : Prop extends Facts₀ where

variable [Facts]
-- ==== Proof.Softmax.lean ====
/-
  The mathematics both programs compute, stated once, over the extended reals.

  From two 8192 × 8192 arrays `x` (the scores) and `y` (the dense 0/1 adjacency mask) both programs form the
  masked row sums
      s r = ∑ k, x[r,k] · y[r,k]                                   (`rowDot`)
  and then the softmax of that vector over its one axis,
      a r = exp (s r − M) / ∑ r', exp (s r' − M),    M = max (−∞, max_r s r)   (`softmax`).
  The kernel multiplies `x · y` and the reference `y · x`; multiplication of extended reals commutes at every
  value, the infinities included, so the two row sums are one function (`rowDot_comm`) and no finiteness of
  the inputs is used. The softmax is the SAME chain of host operations in both programs — a max-reduction
  from the word of −∞, one more maximum with that word, two broadcasts, a subtraction, the exponential, a
  sum from the zero word, two broadcasts, a division — so it is carried as one function of the vector it is
  applied to and never opened: equal row sums give equal softmaxes by congruence.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.MaskedSoftmax

open Idealize.ShloMosaic Idealize.ShloMosaic.ValueIdx

/-- The two argument arrays' shape, the row sums' shape, and the two small shapes the softmax passes through. -/
abbrev Mat : Shape := ⟨2, ![8192, 8192]⟩
abbrev Vct : Shape := ⟨1, ![8192]⟩
abbrev Scl : Shape := ⟨0, ![]⟩
abbrev One : Shape := ⟨1, ![1]⟩

/-- The masked sum of row `r`: the sum over the columns `k` of `x[r,k] · y[r,k]`. -/
def rowSum (x y : FVec Ideal Mat .f32) (r : Fin 8192) : EReal :=
  ∑ k : Fin 8192, x (ix2 r k) * y (ix2 r k)

/-- The vector of masked row sums. -/
def rowDot (x y : FVec Ideal Mat .f32) : FVec Ideal Vct .f32 :=
  fun i => rowSum x y ⟨(i 0).val, (i 0).isLt⟩

theorem rowDot_apply (x y : FVec Ideal Mat .f32) (r : Fin 8192) : rowDot x y (ix1 r) = rowSum x y r := rfl

/-- The factors of each product may be exchanged: `·` on the extended reals is commutative outright. -/
theorem rowSum_comm (x y : FVec Ideal Mat .f32) (r : Fin 8192) : rowSum x y r = rowSum y x r :=
  Finset.sum_congr rfl fun _ _ => mul_comm _ _

theorem rowDot_comm (x y : FVec Ideal Mat .f32) : rowDot x y = rowDot y x :=
  funext fun _ => rowSum_comm x y _

/-! ## The softmax, as the host computes it -/

theorem red : Vct.ReducesTo [0] Scl := by decide
theorem pos : 0 < Scl.numel := by decide
theorem toOne : Scl.BroadcastsInDim One (![] : Fin 0 → Fin One.rank) := by decide
theorem toVct : One.BroadcastsInDim Vct (![0] : Fin 1 → Fin Vct.rank) := by decide

/-- `M`, spread over the vector: the maximum of the entries (folded from −∞), joined once more with −∞. -/
def shift (s : FVec Ideal Vct .f32) : FVec Ideal Vct .f32 :=
  broadcastInDim Vct ![0] toVct (broadcastInDim One ![] toOne
    (maximumf (constant (F := Ideal) Scl .f32 0xFF800000#32)
      (Host.reduce (FloatOps.maximumf (F := Ideal) (φ := .f32)) s (constant (F := Ideal) Scl .f32 0xFF800000#32) red pos)))

/-- `exp (s r − M)`. -/
def expShifted (s : FVec Ideal Vct .f32) : FVec Ideal Vct .f32 :=
  Host.exp (F := Ideal) (subf s (shift s))

/-- `exp (s r − M)` over the sum of those exponentials. -/
def softmax (s : FVec Ideal Vct .f32) : FVec Ideal Vct .f32 :=
  Host.divf (F := Ideal) (expShifted s)
    (broadcastInDim Vct ![0] toVct (broadcastInDim One ![] toOne
      (Host.reduceAdd (F := Ideal) (expShifted s) (constant (F := Ideal) Scl .f32 0x00000000#32) red pos)))

end Cert.MaskedSoftmax

end
-- ==== Proof.BodyRow.lean ====
/-
  One entry of the block the kernel's body leaves.

  At a grid point the body loads a 256 × 8192 block of the scores and the block of the mask at the same place,
  multiplies them elementwise and sums each row over its 8192 lanes from the zero word. At the extended reals a lane
  sum is the plain finite sum over the lane coordinate, so entry `p` of the stored vector is
  `∑ k, x0[p,k] · x1[p,k]`.
-/
import proofs.«158193_j86277303042418_2_alg».proof.Proof.Gen.KernelIdeal.Skeleton
import proofs.«158193_j86277303042418_2_alg».proof.Proof.Softmax

noncomputable section

open scoped BigOperators

namespace Cert.MaskedSoftmax.Body

open Idealize.ShloMosaic Idealize.ShloMosaic.ValueIdx
open Cert.KernelIdeal Cert.KernelIdeal.Gen

/-- Entry `p` of the body's stored vector, from the two loaded blocks. -/
theorem pay_apply (x0 x1 : FVec Ideal S256x8192 .f32) (p : Fin 256) :
    k0_pay1 (F := Ideal) x0 x1 (ix1 p) = ∑ k : Fin 8192, x0 (ix2 p k) * x1 (ix2 p k) := by
  unfold k0_pay1
  refine (Ideal.multiReduction_add_single (mulf x0 x1) 0x00000000#32 reduces_S256x8192_S256 (.inl rfl) rfl (ix1 p)).trans ?_
  refine Finset.sum_congr rfl fun k _ => ?_
  have e : Shape.Reduces.lift reduces_S256x8192_S256 (ix1 p) k = ix2 p k :=
    funext fun a => Fin.ext (by match a with | ⟨0, _⟩ => rfl | ⟨1, _⟩ => rfl)
  show x0 (Shape.Reduces.lift reduces_S256x8192_S256 (ix1 p) k) * x1 (Shape.Reduces.lift reduces_S256x8192_S256 (ix1 p) k) = _
  rw [e]
  rfl

end Cert.MaskedSoftmax.Body

end
-- ==== Proof.RowSums.lean ====
/-
  The kernel's row-sum array after the region.

  The grid has 32 points; point `t` stages rows `256·t … 256·t + 255` of both arguments (all 8192 columns) and
  writes back the 256 sums of those rows. So entry `p` of what point `t` writes is the masked sum of row
  `256·t + p` of the whole arrays: a block's coordinate is its block index times the block size plus the coordinate
  inside the block, and the column coordinate is untouched. The 32 blocks of 256 tile the 8192 entries (row `r`
  lies in the block of point `r / 256`), so after the last write-back the array is `rowDot` of the two arguments.
-/
import proofs.«158193_j86277303042418_2_alg».proof.Proof.Gen.KernelIdeal.Frame
import proofs.«158193_j86277303042418_2_alg».proof.Proof.BodyRow
import Idealize.ShloMosaic.Lib.Pipeline.Value

set_option maxRecDepth 16384

noncomputable section

open scoped BigOperators

namespace Cert.MaskedSoftmax.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl

/-- The three index maps over the grid: both inputs' row-block index is the output's block index, their
    column-block index is 0, and the output's block index is at most 31. -/
theorem index_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_2.index t (0 : Fin 1) ≤ 31 :=
  (by decide +kernel : ∀ t : Fin grid0.N, _)

/-- Every one of the 32 blocks of the output is some point's. -/
theorem index_onto : ∀ q : Fin 32, ∃ t : Fin cfg0.N, win0_2.index t = ![q.val] :=
  (by decide +kernel : ∀ q : Fin 32, ∃ t : Fin grid0.N, win0_2.index t = ![q.val])

/-- Entry `p` of the body's result on block `t` of two arrays `A0`, `A1` is the masked sum of row
    `r = 256·(block index) + p` of the whole arrays. -/
theorem body_row (A0 A1 : FVec Ideal Mat .f32) (t : Fin cfg0.N) (p : Fin 256) (r : Fin 8192)
    (hr : r.val = win0_2.index t (0 : Fin 1) * 256 + p.val) :
    k0_pay1 (F := Ideal) (((cfg0.win 0).blk t).view.read (Elt Ideal) A0) (((cfg0.win 1).blk t).view.read (Elt Ideal) A1) (ix1 p)
      = rowSum A0 A1 r := by
  refine (Body.pay_apply _ _ p).trans ?_
  obtain ⟨e0, e1, e2, e3, _⟩ := index_facts t
  refine Finset.sum_congr rfl fun k _ => ?_
  have h0 : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 8192 + 1 * k.val = k.val; omega
  have h1 : ((cfg0.win 1).blk t).view.emb (ix2 p k) = ix2 r k := by
    funext a; apply Fin.ext
    match a with
    | ⟨0, _⟩ => show win0_1.index t (0 : Fin 2) * 256 + 1 * p.val = r.val; omega
    | ⟨1, _⟩ => show win0_1.index t (1 : Fin 2) * 8192 + 1 * k.val = k.val; omega
  show A0 (((cfg0.win 0).blk t).view.emb (ix2 p k)) * A1 (((cfg0.win 1).blk t).view.emb (ix2 p k))
    = A0 (ix2 r k) * A1 (ix2 r k)
  rw [h0, h1]

/-- What point `t` writes back is block `t` of `rowDot` of the argument arrays. -/
theorem flushed_eq (c : Dev nD) (t : Fin cfg0.N) :
    (dats m 0 c).flushed 2 t
      = ((cfg0.win 2).blk t).view.read (Elt Ideal) (rowDot (V m c main_arg0) (V m c main_arg1)) := by
  show (cfg0.win 2).cut (grid0.coords t) ((dats m 0 c).after 2 t) = _
  rw [after0_2]
  unfold out0_2
  rw [View.canon_unit_zero zeros1]
  simp only [View.ld_unit_zero (S := S256x8192) zeros2]
  obtain ⟨_, _, _, _, e4⟩ := index_facts t
  funext j
  have hj : (j 0).val < 256 := (j 0).isLt
  have hx : (cfg0.win 2).xinj (grid0.coords t) j = ix1 (⟨(j 0).val, hj⟩ : Fin 256) :=
    funext fun a => by match a with | ⟨0, _⟩ => rfl
  show k0_pay1 (F := Ideal) (iblk m c 0 t) (iblk m c 1 t) ((cfg0.win 2).xinj (grid0.coords t) j)
    = rowDot (V m c main_arg0) (V m c main_arg1) (((cfg0.win 2).blk t).view.emb j)
  rw [hx]
  refine (body_row (V m c main_arg0) (V m c main_arg1) t ⟨(j 0).val, hj⟩ ⟨win0_2.index t (0 : Fin 1) * 256 + (j 0).val, by omega⟩ rfl).trans ?_
  show rowSum _ _ _ = rowSum _ _ _
  congr 1
  apply Fin.ext
  show win0_2.index t (0 : Fin 1) * 256 + (j 0).val = win0_2.index t (0 : Fin 1) * 256 + 1 * (j 0).val
  omega

/-- An entry of the array is in point `t`'s block iff it is in the block's range. -/
theorem mem_blk (t : Fin cfg0.N) (i : S8192.Idx) :
    i ∈ ((cfg0.win 2).blk t).view.set ↔ ∀ a : Fin 1, win0_2.index t a * S256.size a ≤ (i a).val ∧ (i a).val < win0_2.index t a * S256.size a + S256.size a := by
  show i ∈ ((View.whole main_v0).slice (win0_2.rect t)).set ↔ _
  rw [View.set_slice_whole, Rect.mem_set_unit]
  exact Iff.rfl

/-- Every entry is in the block of the point its row falls to. -/
theorem cover (i : S8192.Idx) : ∃ t : Fin cfg0.N, (cfg0.win 2).flush t = true ∧ i ∈ ((cfg0.win 2).blk t).view.set := by
  have hi : (i 0).val < 8192 := (i 0).isLt
  obtain ⟨t, ht⟩ := index_onto ⟨(i 0).val / 256, by omega⟩
  have q : win0_2.index t (0 : Fin 1) = (i 0).val / 256 := congrFun ht 0
  refine ⟨t, flush0_2 t, ?_⟩
  rw [mem_blk]
  intro a
  match a with
  | ⟨0, _⟩ => show win0_2.index t (0 : Fin 1) * 256 ≤ (i 0).val ∧ (i 0).val < win0_2.index t (0 : Fin 1) * 256 + 256; omega

/-- The row-sum array after the region is `rowDot` of the two arguments as launched. -/
theorem final (c : Dev nD) :
    (dats m 0 c).arrAt 2 cfg0.N = rowDot (m ((c : Thread nD τ).loc main_arg0)) (m ((c : Thread nD τ).loc main_arg1)) :=
  ((dats m 0 c).arrAt_eq_of_cover 2 _ (fun t _ => flushed_eq m c t) cover).trans
    (by rw [V_main_arg0, V_main_arg1])

end Cert.MaskedSoftmax.Kernel

end
-- ==== Proof.KernelValue.lean ====
/-
  The kernel's two results as functions of its arguments.

  After the region the row-sum array holds `rowDot` of the arguments (RowSums.lean). The thirteen host operations
  that follow read that array and nothing else of the region: their composed term at the softmax's buffer is
  `softmax` applied to the row-sum array, operation for operation, and the arguments are never written.
-/
import proofs.«158193_j86277303042418_2_alg».proof.Proof.RowSums
import Idealize.ShloMosaic.Lib.StableHlo.Run

set_option maxRecDepth 16384

noncomputable section

namespace Cert.MaskedSoftmax.Kernel

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- What the region leaves in the row-sum buffer, as the host operations after it find it. -/
theorem exit_rowSums (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- The softmax buffer after the host operations is `softmax` of what the region left in the row-sum buffer:
    the thirteen operations, composed, are that one function. -/
theorem tail_softmax (c : Dev nD) :
    Pipeline.afterTail₀ cfgs (dats m) 0 (V0 m) [hostOps1] c main_v10
      = softmax (Pipeline.withArrays (cfgs 0).spec c (V0 m c) (fun w => (dats m 0 c).arrAt w (cfgs 0).N) (Proc.devRef .tc main_v0)) := by
  unfold Pipeline.afterTail₀
  show StableHlo.after hostOps1 _ (Proc.devRef .tc main_v10) = _
  after_results
  rfl

/-- The softmax buffer is no array of the region and is not scoped: the region's run leaves it to the host operations. -/
theorem softmax_buffer_rest : main_v10 ∈ Pipeline.restRefs sig (cfgs 0).spec :=
  Pipeline.mem_restRefs_of main_v10 rfl (fun w => by fin_cases w <;> decide)

/-- Every weakly fair execution of the kernel's program terminates with the softmax buffer at `softmax (rowDot x y)`,
    the row-sum buffer at `rowDot x y`, and the two arguments `x`, `y` as launched. -/
theorem run : θ_run defs (onTc (τ := τ) (main (F := Ideal))) ⟨m, fun _ => 0, ρ⟩ fun r => ∀ c : Dev nD,
      r.2.mem ((c.tc : Thread nD τ).loc main_v10)
        = softmax (rowDot (m ((c.tc : Thread nD τ).loc main_arg0)) (m ((c.tc : Thread nD τ).loc main_arg1)))
      ∧ r.2.mem ((c.tc : Thread nD τ).loc main_v0)
        = rowDot (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v10 softmax_buffer_rest).trans
          ((tail_softmax m c).trans (congrArg softmax ((exit_rowSums m c).trans (final m c)))),
        ((h c).1 2).trans (final m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.MaskedSoftmax.Kernel

end
-- ==== Proof.RefValue.lean ====
/-
  The reference's two results as functions of its arguments.

  The reference multiplies the mask by the scores elementwise, sums each row from the zero word, and applies the
  softmax. Read at row `r`, its sum is `0 + ∑ k, y[r,k] · x[r,k]`: the zero word is the real number 0, and the
  factors commute, so it is `rowDot x y` at `r`. Its first result is then `softmax` of that vector, the chain of
  host operations being the one `softmax` names, operation for operation and word for word.
-/
import proofs.«158193_j86277303042418_2_alg».proof.Proof.Gen.ReferenceIdeal.Read
import proofs.«158193_j86277303042418_2_alg».proof.Proof.Softmax

noncomputable section

open scoped BigOperators

namespace Cert.MaskedSoftmax.Ref

open Idealize.ShloMosaic Idealize.ShloMosaic.ValueIdx
open Cert.ReferenceIdeal Cert.ReferenceIdeal.Gen Cert.ReferenceIdeal.Read

/-- The reference's row sums are `rowDot` of its arguments (scores first, mask second, as the kernel reads them). -/
theorem rowSums_eq (x0 x1 : FVec Ideal Mat .f32) : val_main_v1 (F := Ideal) x0 x1 = rowDot x0 x1 := by
  funext i
  obtain ⟨r, rfl⟩ : ∃ r : Fin 8192, i = ix1 r := ⟨i 0, eq_ix1 i⟩
  rw [val_main_v1_apply, rowDot_apply]
  show Ideal.ofBits .f32 0x00000000#32 + _ = _
  rw [Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  show x1 (idx_main_v1 (ix1 r) k) * x0 (idx_main_v1 (ix1 r) k) = x0 (ix2 r k) * x1 (ix2 r k)
  rw [e, mul_comm]

/-- The reference's first result is the softmax of its row sums. -/
theorem softmax_eq (x0 x1 : FVec Ideal Mat .f32) :
    val_main_v11 (F := Ideal) x0 x1 = softmax (val_main_v1 (F := Ideal) x0 x1) := rfl

end Cert.MaskedSoftmax.Ref

end
-- ==== Proof.lean ====
/-
  The kernel and its reference compute the same two vectors.

  Arguments: the scores `x` and the dense 0/1 adjacency mask `y`, both 8192 × 8192. Results, in order: the softmax
  `a` over the 8192 nodes of the masked row sums, and the masked row sums `s` themselves,
      s r = ∑ k, x[r,k] · y[r,k],        a r = exp (s r − M) / ∑ r', exp (s r' − M),   M = max (−∞, max_r s r).

  The kernel forms `s` in a pipelined region over 32 grid points: point `t` multiplies rows 256·t … 256·t + 255 of `x`
  and `y` elementwise and sums each over its 8192 lanes; the 32 blocks of 256 sums tile the vector (RowSums.lean,
  over BodyRow.lean). The reference forms it on the host as the row sums of `y · x`. Over the extended reals a lane sum
  and a host sum from the zero word are both the plain finite sum, and the factors of a product commute whatever
  their values, so the two vectors are one function `rowDot x y` of the arguments (Softmax.lean, RefValue.lean): no
  finiteness of the inputs is needed, and the precondition is never opened. Both programs then apply the same
  chain of host operations to `s`, the softmax; it is carried as one function `softmax` applied to equal vectors
  (KernelValue.lean, RefValue.lean) and never unfolded.

  The three frames: the kernel's two are the generated frame runs; the reference's is its generated run with the
  results dropped. The idealization rewrote no operation of the kernel, so there is nothing to preserve.
-/
import proofs.«158193_j86277303042418_2_alg».proof.Defs
import proofs.«158193_j86277303042418_2_alg».proof.Proof.Gen.Kernel
import proofs.«158193_j86277303042418_2_alg».proof.Proof.Gen.Kernel.Skeleton
import proofs.«158193_j86277303042418_2_alg».proof.Proof.Gen.Kernel.Launch
import proofs.«158193_j86277303042418_2_alg».proof.Proof.Gen.Kernel.Points
import proofs.«158193_j86277303042418_2_alg».proof.Proof.Gen.Kernel.Frame
import proofs.«158193_j86277303042418_2_alg».proof.Proof.Gen.KernelIdeal
import proofs.«158193_j86277303042418_2_alg».proof.Proof.Gen.KernelIdeal.Skeleton
import proofs.«158193_j86277303042418_2_alg».proof.Proof.Gen.KernelIdeal.Launch
import proofs.«158193_j86277303042418_2_alg».proof.Proof.Gen.KernelIdeal.Points
import proofs.«158193_j86277303042418_2_alg».proof.Proof.Gen.KernelIdeal.Frame
import proofs.«158193_j86277303042418_2_alg».proof.Proof.Gen.ReferenceIdeal
import proofs.«158193_j86277303042418_2_alg».proof.Proof.Gen.Pre_finite_inputs
import proofs.«158193_j86277303042418_2_alg».proof.Proof.Gen.ReferenceIdeal.Run
import proofs.«158193_j86277303042418_2_alg».proof.Proof.Gen.ReferenceIdeal.Read
import proofs.«158193_j86277303042418_2_alg».proof.Proof.KernelValue
import proofs.«158193_j86277303042418_2_alg».proof.Proof.RefValue
import Idealize.ShloMosaic.Adequacy
import Idealize.ShloMosaic.Init

noncomputable section

namespace Cert.Proof

open Idealize.ShloMosaic Idealize.SL.Sem Cert.MaskedSoftmax

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the two results forgotten. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on `x` and `y`, both programs end with `softmax (rowDot x y)` and `rowDot x y`. -/
theorem algebraic : Cert.algebraic_KernelIdeal_ReferenceIdeal := by
  intro m ρ m' ρ' _ hagree
  refine ⟨_, _, Cert.MaskedSoftmax.Kernel.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [(hagree c).1, (hagree c).2]
    exact (Cert.ReferenceIdeal.Read.val_main_v11_eq _ _).trans
      ((Ref.softmax_eq _ _).trans (congrArg softmax (Ref.rowSums_eq _ _)))
  · rw [(hagree c).1, (hagree c).2]
    exact (Cert.ReferenceIdeal.Read.val_main_v1_eq _ _).trans (Ref.rowSums_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
